-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S8192x3 : Shape := ⟨2, ![8192, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8192x3 : S_.BroadcastsInDim S8192x3 (![] : Fin 0 → Fin S8192x3.rank)
  reducesTo_S8192x3_S_d0_1 : S8192x3.ReducesTo [0, 1] S_
  reducesTo_S_S_d : S_.ReducesTo [] S_

variable [Facts]

def fn {F : FTy → Type} [FloatOps F] (main_arg0 : FVec F S8x4096x3 .f32) (main_arg1 : FVec F S8192x3 .f32) (main_arg2 : FVec F S_ .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8192x3 .f32 := Host.absf main_arg1
  let main_cst_0 : FVec F S_ .f32 := constant S_ .f32 0x7F800000#32
  let main_v5 : FVec F S8192x3 .f32 := broadcastInDim S8192x3 ![] bcast_S_S8192x3 main_cst_0
  let main_v6 : IVec S8192x3 1 := cmpf .olt main_v4 main_v5
  let main_c_1 : IVec S_ 1 := constantI S_ 1 1#1
  let main_v7 : IVec S_ 1 := (fun x v => Host.reduce IntOp.andi x v reducesTo_S8192x3_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  main_v12
-- ==== Kernel.lean ====
abbrev S8x4096x3 : Shape := ⟨3, ![8, 4096, 3]⟩
abbrev S8192x3 : Shape := ⟨2, ![8192, 3]⟩
abbrev S_ : Shape := ⟨0, ![]⟩
abbrev S32768x3 : Shape := ⟨2, ![32768, 3]⟩
abbrev S32768 : Shape := ⟨1, ![32768]⟩
abbrev S32768x1 : Shape := ⟨2, ![32768, 1]⟩
abbrev S32768x4 : Shape := ⟨2, ![32768, 4]⟩
abbrev S8192 : Shape := ⟨1, ![8192]⟩
abbrev S8192x1 : Shape := ⟨2, ![8192, 1]⟩
abbrev S8192x4 : Shape := ⟨2, ![8192, 4]⟩
abbrev S4x8192 : Shape := ⟨2, ![4, 8192]⟩
abbrev S1024x4 : Shape := ⟨2, ![1024, 4]⟩
abbrev S4x2048 : Shape := ⟨2, ![4, 2048]⟩
abbrev S1024x1 : Shape := ⟨2, ![1024, 1]⟩
abbrev S1024x2048 : Shape := ⟨2, ![1024, 2048]⟩
abbrev S1024 : Shape := ⟨1, ![1024]⟩
abbrev S8x4096 : Shape := ⟨2, ![8, 4096]⟩
abbrev S8 : Shape := ⟨1, ![8]⟩

abbrev nBuf : Space → Nat
  | .hbm => 32
  | .vmem => 7
  | .smem => 0
  | _ => 0

abbrev bufTy : (tb : Table) → Fin (tcTables nBuf tb) → BufTy
  | .hbm, ⟨0, _⟩ => ⟨S8x4096x3, .f32⟩
  | .hbm, ⟨1, _⟩ => ⟨S8192x3, .f32⟩
  | .hbm, ⟨2, _⟩ => ⟨S_, .f32⟩
  | .hbm, ⟨3, _⟩ => ⟨S32768x3, .f32⟩
  | .hbm, ⟨4, _⟩ => ⟨S32768x3, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S_, .f32⟩
  | .hbm, ⟨11, _⟩ => ⟨S32768x3, .f32⟩
  | .hbm, ⟨12, _⟩ => ⟨S32768x3, .f32⟩
  | .hbm, ⟨13, _⟩ => ⟨S32768x4, .f32⟩
  | .hbm, ⟨14, _⟩ => ⟨S8192x3, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x4, .f32⟩
  | .hbm, ⟨19, _⟩ => ⟨S4x8192, .f32⟩
  | .hbm, ⟨20, _⟩ => ⟨S32768x1, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768, .f32⟩
  | .hbm, ⟨26, _⟩ => ⟨S32768, .f32⟩
  | .hbm, ⟨27, _⟩ => ⟨S32768, .f32⟩
  | .hbm, ⟨28, _⟩ => ⟨S32768, .f32⟩
  | .hbm, ⟨29, _⟩ => ⟨S8x4096, .f32⟩
  | .hbm, ⟨30, _⟩ => ⟨S_, .f32⟩
  | .hbm, ⟨31, _⟩ => ⟨S8, .f32⟩
  | .local _ .vmem, ⟨0, _⟩ => ⟨S1024x4, .f32⟩
  | .local _ .vmem, ⟨1, _⟩ => ⟨S1024x4, .f32⟩
  | .local _ .vmem, ⟨2, _⟩ => ⟨S4x2048, .f32⟩
  | .local _ .vmem, ⟨3, _⟩ => ⟨S4x2048, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8x4096x3_S32768x3 : S8x4096x3.ShapeCasts S32768x3
  reducesTo_S32768x3_S32768_d1 : S32768x3.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S_S32768x3 : S_.BroadcastsInDim S32768x3 (![] : Fin 0 → Fin S32768x3.rank)
  concatenates_S32768x3_S32768x1_S32768x4_d1 : Shape.Concatenates [S32768x3, S32768x1] S32768x4 1
  reducesTo_S8192x3_S8192_d1 : S8192x3.ReducesTo [1] S8192
  bcast_S8192_S8192x1_0 : S8192.BroadcastsInDim S8192x1 (![0] : Fin 1 → Fin S8192x1.rank)
  concatenates_S8192x3_S8192x1_S8192x4_d1 : Shape.Concatenates [S8192x3, S8192x1] S8192x4 1
  transposes_S8192x4_S4x8192_1_0 : S8192x4.Transposes [1, 0] S4x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x4_S1024x4_0_0 : ∀ a, (![0, 0] : Fin 2 → Nat) a + S1024x4.size a ≤ S1024x4.size a
  h_S1024x4 : 0 < S1024x4.numel
  shapeCasts_S1024x4_S1024x4 : S1024x4.ShapeCasts S1024x4
  inb_S4x2048_S4x2048_0_0 : ∀ a, (![0, 0] : Fin 2 → Nat) a + S4x2048.size a ≤ S4x2048.size a
  h_S4x2048 : 0 < S4x2048.numel
  shapeCasts_S4x2048_S4x2048 : S4x2048.ShapeCasts S4x2048
  reduces_S1024x2048_S1024 : S1024x2048.Reduces [1] S1024
  shapeCasts_S1024_S1024x1 : S1024.ShapeCasts S1024x1
  shapeCasts_S32768x1_S32768 : S32768x1.ShapeCasts S32768
  bcast_S_S32768 : S_.BroadcastsInDim S32768 (![] : Fin 0 → Fin S32768.rank)
  shapeCasts_S32768_S8x4096 : S32768.ShapeCasts S8x4096
  reducesTo_S8x4096_S8_d1 : S8x4096.ReducesTo [1] S8
  dot_S1024x4_S4x2048_S1024x2048_1_0_0_1_n_n_wf : DotDims.WF S1024x4 S4x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4.size a ≤ S32768x4.size a
  hwx0_0 : ∀ i : grid0.Coords, EltTy.bits .f32 = 32 ∨ (Rect.block (s := S32768x4) S1024x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x2048.size a ≤ S4x8192.size a
  hwx0_1 : ∀ i : grid0.Coords, EltTy.bits .f32 = 32 ∨ (Rect.block (s := S4x8192) S4x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S32768x1.size a
  hwx0_2 : ∀ i : grid0.Coords, EltTy.bits .f32 = 32 ∨ (Rect.block (s := S32768x1) S1024x1.size (cc0_transform_2 i) (hinb0_2 i)).WholeWords (EltTy.packing .f32)

variable [Facts₀]

def dot_S1024x4_S4x2048_S1024x2048_1_0_0_1_n_n : DotDims S1024x4 S4x2048 S1024x2048 where
  lhsContracting := [1]
  rhsContracting := [0]
  lhsNonContracting := [0]
  rhsNonContracting := [1]
  lhsBatch := []
  rhsBatch := []
  wf := dot_S1024x4_S4x2048_S1024x2048_1_0_0_1_n_n_wf

abbrev win0_0 : Pipeline.Window sig grid0 :=
  Pipeline.Window.ofSpec (Memref.whole main_v7) S1024x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S8192x3 : Shape := ⟨2, ![8192, 3]⟩
abbrev S_ : Shape := ⟨0, ![]⟩
abbrev S32768x3 : Shape := ⟨2, ![32768, 3]⟩
abbrev S32768 : Shape := ⟨1, ![32768]⟩
abbrev S32768x1 : Shape := ⟨2, ![32768, 1]⟩
abbrev S8192 : Shape := ⟨1, ![8192]⟩
abbrev S1x8192 : Shape := ⟨2, ![1, 8192]⟩
abbrev S32768x8192 : Shape := ⟨2, ![32768, 8192]⟩
abbrev S3x8192 : Shape := ⟨2, ![3, 8192]⟩
abbrev S8x4096 : Shape := ⟨2, ![8, 4096]⟩
abbrev S8 : Shape := ⟨1, ![8]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8192x3, .f32⟩
  | .hbm, ⟨2, _⟩ => ⟨S_, .f32⟩
  | .hbm, ⟨3, _⟩ => ⟨S32768x3, .f32⟩
  | .hbm, ⟨4, _⟩ => ⟨S32768x3, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S8192x3, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S32768x8192, .f32⟩
  | .hbm, ⟨13, _⟩ => ⟨S32768x8192, .f32⟩
  | .hbm, ⟨14, _⟩ => ⟨S32768x8192, .f32⟩
  | .hbm, ⟨15, _⟩ => ⟨S3x8192, .f32⟩
  | .hbm, ⟨16, _⟩ => ⟨S32768x8192, .f32⟩
  | .hbm, ⟨17, _⟩ => ⟨S_, .f32⟩
  | .hbm, ⟨18, _⟩ => ⟨S32768x8192, .f32⟩
  | .hbm, ⟨19, _⟩ => ⟨S32768x8192, .f32⟩
  | .hbm, ⟨20, _⟩ => ⟨S32768x8192, .f32⟩
  | .hbm, ⟨21, _⟩ => ⟨S_, .f32⟩
  | .hbm, ⟨22, _⟩ => ⟨S32768x8192, .f32⟩
  | .hbm, ⟨23, _⟩ => ⟨S32768x8192, .f32⟩
  | .hbm, ⟨24, _⟩ => ⟨S_, .f32⟩
  | .hbm, ⟨25, _⟩ => ⟨S32768, .f32⟩
  | .hbm, ⟨26, _⟩ => ⟨S32768, .f32⟩
  | .hbm, ⟨27, _⟩ => ⟨S8x4096, .f32⟩
  | .hbm, ⟨28, _⟩ => ⟨S8x4096, .f32⟩
  | .hbm, ⟨29, _⟩ => ⟨S8x4096, .f32⟩
  | .hbm, ⟨30, _⟩ => ⟨S_, .f32⟩
  | .hbm, ⟨31, _⟩ => ⟨S8, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  shapeCasts_S8x4096x3_S32768x3 : S8x4096x3.ShapeCasts S32768x3
  reducesTo_S32768x3_S32768_d1 : S32768x3.ReducesTo [1] S32768
  h_S_ : 0 < S_.numel
  bcast_S32768_S32768x1_0 : S32768.BroadcastsInDim S32768x1 (![0] : Fin 1 → Fin S32768x1.rank)
  reducesTo_S8192x3_S8192_d1 : S8192x3.ReducesTo [1] S8192
  bcast_S8192_S1x8192_1 : S8192.BroadcastsInDim S1x8192 (![1] : Fin 1 → Fin S1x8192.rank)
  bcast_S32768x1_S32768x8192_0_1 : S32768x1.BroadcastsInDim S32768x8192 (![0, 1] : Fin 2 → Fin S32768x8192.rank)
  bcast_S1x8192_S32768x8192_0_1 : S1x8192.BroadcastsInDim S32768x8192 (![0, 1] : Fin 2 → Fin S32768x8192.rank)
  transposes_S8192x3_S3x8192_1_0 : S8192x3.Transposes [1, 0] S3x8192
  bcast_S_S32768x8192 : S_.BroadcastsInDim S32768x8192 (![] : Fin 0 → Fin S32768x8192.rank)
  reducesTo_S32768x8192_S32768_d1 : S32768x8192.ReducesTo [1] S32768
  shapeCasts_S32768_S8x4096 : S32768.ShapeCasts S8x4096
  bcast_S_S8x4096 : S_.BroadcastsInDim S8x4096 (![] : Fin 0 → Fin S8x4096.rank)
  reducesTo_S8x4096_S8_d1 : S8x4096.ReducesTo [1] S8
  dot_S32768x3_S3x8192_S32768x8192_1_0_0_1_n_n_wf : DotDims.WF S32768x3 S3x8192 S32768x8192 [1] [0] [0] [1] [] []

variable [Facts₀]

def dot_S32768x3_S3x8192_S32768x8192_1_0_0_1_n_n : DotDims S32768x3 S3x8192 S32768x8192 where
  lhsContracting := [1]
  rhsContracting := [0]
  lhsNonContracting := [0]
  rhsNonContracting := [1]
  lhsBatch := []
  rhsBatch := []
  wf := dot_S32768x3_S3x8192_S32768x8192_1_0_0_1_n_n_wf

class Facts : Prop extends Facts₀ where

variable [Facts]
-- ==== Proof.Pieces.lean ====
/-
  What the kernel body leaves behind at one grid point, as values.

  At every grid point the body replaces the running-minimum column by one payload of the two input blocks and of the
  column it found; at a row block's first point the column it finds is the one it has just reset to +∞, and at a row
  block's last point the output block receives a copy of the new column.
-/
import proofs.«165794_j84224308674625_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A point that is neither first nor last in its row block: the column found, `xs0`, is replaced by the payload. -/
theorem scratch_B (c : Dev nD) (i : grid0.Coords) (a2 : Memref sig .tc .vmem S1024x4 .f32) (h2 : a2.IsWhole)
    (a3 : Memref sig .tc .vmem S4x2048 .f32) (h3 : a3.IsWhole) (a4 : Memref sig .tc .vmem S1024x1 .f32) (h4 : a4.IsWhole)
    (a5 : Memref sig .tc .vmem S1024x1 .f32) (h5 : a5.IsWhole) (hc0 : ¬cond0_0 i) (hc1 : ¬cond0_1 i)
    (x0 : Vec F S1024x4 .f32) (x1 : Vec F S4x2048 .f32) (xs0 : Vec F S1024x1 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz]
  simp only [View.readAt_eq_ld, h2.read_unread, h3.read_unread, h5.read_unread, View.ld_unit_zero (S := S1024x4) hz,
    View.ld_unit_zero (S := S4x2048) hz, View.ld_unit_zero (S := S1024x1) hz]

/-- The last point of a row block: the column is replaced in the same way, -/
theorem scratch_C (c : Dev nD) (i : grid0.Coords) (a2 : Memref sig .tc .vmem S1024x4 .f32) (h2 : a2.IsWhole)
    (a3 : Memref sig .tc .vmem S4x2048 .f32) (h3 : a3.IsWhole) (a4 : Memref sig .tc .vmem S1024x1 .f32) (h4 : a4.IsWhole)
    (a5 : Memref sig .tc .vmem S1024x1 .f32) (h5 : a5.IsWhole) (hc0 : ¬cond0_0 i) (hc1 : cond0_1 i)
    (x0 : Vec F S1024x4 .f32) (x1 : Vec F S4x2048 .f32) (xs0 : Vec F S1024x1 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S1024x4) hz,
    View.ld_unit_zero (S := S4x2048) hz, View.ld_unit_zero (S := S1024x1) hz]

/-- and the output block receives the new column. -/
theorem out_C (c : Dev nD) (i : grid0.Coords) (a2 : Memref sig .tc .vmem S1024x4 .f32) (h2 : a2.IsWhole)
    (a3 : Memref sig .tc .vmem S4x2048 .f32) (h3 : a3.IsWhole) (a4 : Memref sig .tc .vmem S1024x1 .f32) (h4 : a4.IsWhole)
    (a5 : Memref sig .tc .vmem S1024x1 .f32) (h5 : a5.IsWhole) (hc0 : ¬cond0_0 i) (hc1 : cond0_1 i)
    (x0 : Vec F S1024x4 .f32) (x1 : Vec F S4x2048 .f32) (xs0 : Vec F S1024x1 .f32) :
    out0_C_2 c i a2 h2 a3 h3 a4 h4 a5 h5 hc0 hc1 x0 x1 xs0 = k0_pay2 x0 x1 xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz, View.readCov_unit_zero (S := S1024x1) _ hz]
  simp only [View.readAt_eq_ld, h2.read_unread, h3.read_unread, h5.read_unread, View.ld_unit_zero (S := S1024x4) hz,
    View.ld_unit_zero (S := S4x2048) hz, View.ld_unit_zero (S := S1024x1) hz]

/-- The first point of a row block: the column is first reset (`k0_pay1`: +∞ everywhere), then replaced by the payload
    over that reset column. -/
theorem scratch_A (c : Dev nD) (i : grid0.Coords) (a2 : Memref sig .tc .vmem S1024x4 .f32) (h2 : a2.IsWhole)
    (a3 : Memref sig .tc .vmem S4x2048 .f32) (h3 : a3.IsWhole) (a4 : Memref sig .tc .vmem S1024x1 .f32) (h4 : a4.IsWhole)
    (a5 : Memref sig .tc .vmem S1024x1 .f32) (h5 : a5.IsWhole) (hc0 : cond0_0 i) (hc1 : ¬cond0_1 i)
    (x0 : Vec F S1024x4 .f32) (x1 : Vec F S4x2048 .f32) :
    sout0_A_0 c i a2 h2 a3 h3 a4 h4 a5 h5 hc0 hc1 x0 x1 = k0_pay2 x0 x1 k0_pay1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x1) hz, View.readCov_unit_zero (S := S1024x1) _ hz]
  simp only [View.readAt_eq_ld, h2.read_unread, h3.read_unread, h5.read_unread, View.ld_unit_zero (S := S1024x4) hz,
    View.ld_unit_zero (S := S4x2048) hz, View.ld_unit_zero (S := S1024x1) hz]

end Cert.KernelIdeal.Pieces

end
-- ==== Proof.LibMatmul.lean ====
/-
  A matrix product read at one entry, over the extended reals.

  A product of an [A, K] matrix by a [K, B] matrix whose dimension numbers contract the left operand's second axis
  with the right operand's first, accumulated into the zero matrix, has at entry (r, j) the value
  Σ_k lhs[r, k] · rhs[k, j]: exact arithmetic leaves neither rounding nor a chunk order in it.
-/
import Idealize.ShloMosaic.PureOps.Ideal.Laws
import Idealize.ShloMosaic.Lib.ValueIdx

noncomputable section

namespace Cert.LibMatmul

open Idealize.ShloMosaic Idealize.ShloMosaic.ValueIdx

/-- Entry (r, j) of a plain matrix product into a zero accumulator is the sum over the contracted axis. -/
theorem plain_matmul_zero_apply {A K B : Nat} {φ₁ φ₂ : FTy} (prec : Option ContractPrecision)
    (lhs : FVec Ideal ⟨2, ![A, K]⟩ φ₁) (rhs : FVec Ideal ⟨2, ![K, B]⟩ φ₂) (r : Fin A) (j : Fin B) :
    FloatOps.matmul (DotDims.plain A K B) prec lhs rhs (constant (F := Ideal) ⟨2, ![A, B]⟩ .f32 0x00000000#32) (ix2 r j)
      = ∑ k : Fin K, lhs (ix2 r k) * rhs (ix2 k j) := by
  rw [Ideal.matmul_constant_zero_apply, ← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 r j) ((contrEquiv1 (DotDims.plain A K B) K rfl rfl).symm k) = ix2 r k :=
    funext fun a => Fin.ext (by
      match a with
      | ⟨0, _⟩ => rfl
      | ⟨1, _⟩ => exact ((DotDims.plain A K B).lhsIdx_val_of_single rfl (ix2 r j) _).trans hk)
  have er : (DotDims.plain A K B).rhsIdx (ix2 r j) ((contrEquiv1 (DotDims.plain A K B) K rfl rfl).symm k) = ix2 k j :=
    funext fun a => Fin.ext (by
      match a with
      | ⟨0, _⟩ => exact ((DotDims.plain A K B).rhsIdx_val_of_single rfl (ix2 r j) _).trans hk
      | ⟨1, _⟩ => rfl)
  rw [el, er]

end Cert.LibMatmul

end
-- ==== Proof.LibColumns.lean ====
/-
  Column vectors read at an index: a length-`a` vector viewed as an `[a, 1]` column and back, and a column broadcast
  along the second axis. Each is the general "same row-major position" or "trailing coordinates" reading of the layout
  operation, with both indices written out by coordinates.
-/
import Idealize.ShloMosaic.Lib.ValueLayout

namespace Cert.LibColumns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumns
-- ==== Proof.Payload.lean ====
/-
  The body's two payloads read at an entry, over the extended reals.

  The reset payload is +∞ everywhere.  The update payload, at row r of the column, is the smaller of the entry found
  and the minimum, over the 2048 columns n of the block of points, of the four-term product of row r of the query
  block with column n of the point block.
-/
import proofs.«165794_j84224308674625_2_alg».proof.Proof.Gen.KernelIdeal.Skeleton
import proofs.«165794_j84224308674625_2_alg».proof.Proof.LibMatmul
import proofs.«165794_j84224308674625_2_alg».proof.Proof.LibColumns
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen

/-- A minimum-reduction over one axis, from the accumulator's value, is the fold of `min` over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Row r of the reduced vector with column n put back is entry (r, n). -/
theorem lift_row (h : S1024x2048.Reduces [1] S1024) (r : Fin 1024) (n : Fin (S1024x2048.size 1)) :
    h.lift (ix1 r) n = ix2 r (⟨n.val, n.isLt⟩ : Fin 2048) := by
  funext c; apply Fin.ext
  fin_cases c <;> rfl

/-- The reset payload is +∞ at every entry. -/
theorem pay1_apply (j : S1024x1.Idx) : k0_pay1 (F := Ideal) j = Ideal.ofBits .f32 0x7F800000#32 := by
  unfold k0_pay1
  rw [shapeCast_self]
  rfl

/-- The update payload at row r. -/
theorem pay2_apply (x0 : Vec Ideal S1024x4 .f32) (x1 : Vec Ideal S4x2048 .f32) (acc : Vec Ideal S1024x1 .f32) (r : Fin 1024) :
    k0_pay2 (F := Ideal) x0 x1 acc (ix2 r (0 : Fin 1))
      = min (acc (ix2 r (0 : Fin 1))) ((Finset.univ : Finset (Fin 2048)).fold min (Ideal.ofBits .f32 0x7F800000#32)
          (fun n => ∑ k : Fin 4, x0 (ix2 r k) * x1 (ix2 k n))) := by
  unfold k0_pay2
  simp only [shapeCast_self]
  rw [minimumf_apply, Cert.LibColumns.shapeCast_a_a1_apply]
  refine congrArg (min _) ?_
  refine (multiReduction_minimumf_single _ _ reduces_S1024x2048_S1024 _ _ (ix1 r)).trans ?_
  refine Finset.fold_congr fun n _ => ?_
  show matmul _ _ _ _ _ (reduces_S1024x2048_S1024.lift (ix1 r) n) = _
  rw [lift_row]
  exact Cert.LibMatmul.plain_matmul_zero_apply (some .fp32) x0 x1 r n

end Cert.KernelIdeal.Payload

end
-- ==== Proof.Blocks.lean ====
/-
  The blocks the kernel reads at a grid point.

  Grid point t = 4·i + j reads rows 1024·i … 1024·i + 1023 of the augmented query matrix and columns
  2048·j … 2048·j + 2047 of the augmented point matrix, and at j = 3 writes rows 1024·i … of the output column.
-/
import proofs.«165794_j84224308674625_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The printed index maps over the grid: the row block is t / 4, the column block t % 4. -/
theorem index_facts : ∀ t : Fin cfg0.N, win0_0.index t (0 : Fin 2) = t.val / 4 ∧ win0_0.index t (1 : Fin 2) = 0
    ∧ win0_1.index t (0 : Fin 2) = 0 ∧ win0_1.index t (1 : Fin 2) = t.val % 4
    ∧ win0_2.index t (0 : Fin 2) = t.val / 4 ∧ win0_2.index t (1 : Fin 2) = 0 :=
  (by decide +kernel : ∀ t : Fin grid0.N, _)

/-- Entry (r, k) of the query block at point t is entry (1024·(t/4) + r, k) of the augmented query matrix. -/
theorem queryBlock_apply (c : Dev nD) (t : Fin cfg0.N) (r : Fin 1024) (k : Fin 4) :
    (iblk m c 0 t : Vec F S1024x4 .f32) (ix2 r k)
      = V m c main_v7 (ix2 (⟨1024 * (t.val / 4) + r.val, by have := t.isLt; have := r.isLt; have : cfg0.N = 128 := N_0; omega⟩ : Fin 32768) k) := by
  obtain ⟨e0, e1, -, -, -, -⟩ := index_facts t
  unfold iblk
  rw [View.read_apply]
  show V m c main_v7 _ = V m c main_v7 _
  congr 1
  funext a; apply Fin.ext
  match a with
  | ⟨0, _⟩ => show win0_0.index t (0 : Fin 2) * 1024 + 1 * r.val = 1024 * (t.val / 4) + r.val; rw [e0]; omega
  | ⟨1, _⟩ => show win0_0.index t (1 : Fin 2) * 4 + 1 * k.val = k.val; rw [e1]; omega

/-- Entry (k, n) of the point block at point t is entry (k, 2048·(t%4) + n) of the augmented point matrix. -/
theorem pointBlock_apply (c : Dev nD) (t : Fin cfg0.N) (k : Fin 4) (n : Fin 2048) :
    (iblk m c 1 t : Vec F S4x2048 .f32) (ix2 k n)
      = V m c main_v12 (ix2 k (⟨2048 * (t.val % 4) + n.val, by have := n.isLt; omega⟩ : Fin 8192)) := by
  obtain ⟨-, -, e0, e1, -, -⟩ := index_facts t
  unfold iblk
  rw [View.read_apply]
  show V m c main_v12 _ = V m c main_v12 _
  congr 1
  funext a; apply Fin.ext
  match a with
  | ⟨0, _⟩ => show win0_1.index t (0 : Fin 2) * 4 + 1 * k.val = k.val; rw [e0]; omega
  | ⟨1, _⟩ => show win0_1.index t (1 : Fin 2) * 2048 + 1 * n.val = 2048 * (t.val % 4) + n.val; rw [e1]; omega

end Cert.KernelIdeal.Blocks

end
-- ==== Proof.Consts.lean ====
/-
  The float words the two programs spell, as the extended reals they denote: 0, 1, 2, -2 and +∞.
-/
import Idealize.ShloMosaic.PureOps.Ideal
import Idealize.ShloMosaic.PureOps.Ideal.Laws

noncomputable section

namespace Cert.Consts

open Idealize.ShloMosaic

/-- The word of `+0.0` denotes the real 0. -/
theorem ofBits_zero : Ideal.ofBits .f32 0x00000000#32 = ((0 : ℝ) : EReal) := by
  rw [Ideal.ofBits_zero_f32]; rfl

/-- The word of `1.0` denotes the real 1. -/
theorem ofBits_one : Ideal.ofBits .f32 0x3F800000#32 = ((1 : ℝ) : EReal) := by
  simp [Ideal.ofBits, Ideal.ieee, -EReal.coe_mul]; norm_num

/-- The word of `2.0` denotes the real 2. -/
theorem ofBits_two : Ideal.ofBits .f32 0x40000000#32 = ((2 : ℝ) : EReal) := by
  simp [Ideal.ofBits, Ideal.ieee, -EReal.coe_mul]; norm_num

/-- The word of `-2.0` denotes the real -2. -/
theorem ofBits_neg_two : Ideal.ofBits .f32 0xC0000000#32 = ((-2 : ℝ) : EReal) := by
  simp [Ideal.ofBits, Ideal.ieee, -EReal.coe_mul]; norm_num

/-- The word of `+∞` denotes the top element. -/
theorem ofBits_inf : Ideal.ofBits .f32 0x7F800000#32 = (⊤ : EReal) := by
  simp [Ideal.ofBits, Ideal.ieee]

end Cert.Consts

end
-- ==== Proof.LibFoldMin.lean ====
/-
  Minima of finitely many extended reals, folded from the top element.

  A running minimum taken block by block is carried by its universal property: a number is below the running
  minimum exactly when it is below every entry met so far.  From it: the minimum over a whole index range is the
  fold of `min` from `⊤`, and a monotone map that fixes `⊤` may be moved inside such a fold.
-/
import Mathlib.Data.Finset.Fold
import Mathlib.Data.Finset.Lattice.Fold
import Mathlib.Data.EReal.Basic
import Mathlib.Data.Fintype.Basic

namespace Cert.FoldMin

/-- A number is below the minimum (folded from `⊤`) of a finite family exactly when it is below every member. -/
theorem le_fold_iff {ι : Type*} [Fintype ι] (f : ι → EReal) (c : EReal) :
    c ≤ (Finset.univ : Finset ι).fold min ⊤ f ↔ ∀ k, c ≤ f k := by
  rw [Finset.le_fold_min]
  exact ⟨fun h k => h.2 k (Finset.mem_univ k), fun h => ⟨le_top, fun k _ => h k⟩⟩

/-- A monotone map that fixes `⊤` commutes with the minimum folded from `⊤`. -/
theorem map_fold {ι : Type*} (s : Finset ι) (f : ι → EReal) (g : EReal → EReal) (hg : Monotone g) (ht : g ⊤ = ⊤) :
    g (s.fold min ⊤ f) = s.fold min ⊤ (fun k => g (f k)) := by
  have h := Finset.fold_hom (op := min) (op' := min) (s := s) (b := (⊤ : EReal)) (f := f) (m := g)
    (fun x y => hg.map_min)
  rw [ht] at h
  exact h.symm

/-- `a` is the greatest lower bound of the entries `f n` with `n` below `b`. -/
def IsInfBelow {N : ℕ} (f : Fin N → EReal) (b : ℕ) (a : EReal) : Prop :=
  ∀ c : EReal, c ≤ a ↔ ∀ n : Fin N, n.val < b → c ≤ f n

/-- Before any entry the bound is `⊤`. -/
theorem isInfBelow_zero {N : ℕ} (f : Fin N → EReal) : IsInfBelow f 0 ⊤ :=
  fun c => ⟨fun _ n hn => absurd hn (Nat.not_lt_zero _), fun _ => le_top⟩

/-- One more block of `T` entries: the bound becomes its minimum with the block's minimum. -/
theorem IsInfBelow.step {N : ℕ} {f : Fin N → EReal} {b : ℕ} {a : EReal} (h : IsInfBelow f b a) (T : ℕ)
    (hb : b + T ≤ N) (g : Fin T → EReal) (hg : ∀ k : Fin T, g k = f ⟨b + k.val, by have := k.isLt; omega⟩) :
    IsInfBelow f (b + T) (min a ((Finset.univ : Finset (Fin T)).fold min ⊤ g)) := by
  intro c
  rw [le_min_iff, h c, le_fold_iff]
  constructor
  · rintro ⟨h1, h2⟩ n hn
    by_cases hlt : n.val < b
    · exact h1 n hlt
    · have hk : n.val - b < T := by omega
      have e := h2 ⟨n.val - b, hk⟩
      rw [hg] at e
      have en : (⟨b + (n.val - b), by omega⟩ : Fin N) = n := Fin.ext (by simp only; omega)
      rw [en] at e
      exact e
  · intro h1
    refine ⟨fun n hn => h1 n (by omega), fun k => ?_⟩
    rw [hg]
    exact h1 _ (by have := k.isLt; simp only; omega)

/-- The bound over the whole range is the minimum folded from `⊤`. -/
theorem IsInfBelow.eq_fold {N : ℕ} {f : Fin N → EReal} {a : EReal} (h : IsInfBelow f N a) :
    a = (Finset.univ : Finset (Fin N)).fold min ⊤ f := by
  refine eq_of_forall_le_iff fun c => ?_
  rw [h c, le_fold_iff]
  exact ⟨fun h1 k => h1 k k.isLt, fun h1 n _ => h1 n⟩

end Cert.FoldMin
-- ==== Proof.Accum.lean ====
/-
  The running minimum the kernel carries across the four column blocks of a row block.

  Write s(R, n) for the four-term product of row R of the augmented query matrix with column n of the augmented point
  matrix.  After grid point t = 4·i + j, row r of the carried column is the greatest lower bound of
  s(1024·i + r, n) over the columns n below 2048·(j + 1): the first point of a row block starts from +∞, every later
  point takes the minimum of what it finds with the minimum over its own 2048 columns.  After the fourth point this is
  the minimum over all 8192 columns, and that point copies the column into the output block.
-/
import proofs.«165794_j84224308674625_2_alg».proof.Proof.Pieces
import proofs.«165794_j84224308674625_2_alg».proof.Proof.Payload
import proofs.«165794_j84224308674625_2_alg».proof.Proof.Blocks
import proofs.«165794_j84224308674625_2_alg».proof.Proof.Consts
import proofs.«165794_j84224308674625_2_alg».proof.Proof.LibFoldMin

set_option maxHeartbeats 1000000

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.FoldMin

variable (m : (ℓ : Loc nD τ sig) → Buf (Elt Ideal) ℓ)

/-- The augmented query matrix as the kernel finds it. -/
abbrev augQ (c : Dev nD) : S32768x4.Idx → EReal := V m c main_v7
/-- The augmented point matrix as the kernel finds it. -/
abbrev augP (c : Dev nD) : S4x8192.Idx → EReal := V m c main_v12
/-- The query block and the point block of grid point n. -/
abbrev qBlk (c : Dev nD) (n : ℕ) (hn : n < cfg0.N) : Vec Ideal S1024x4 .f32 := iblk m c 0 ⟨n, hn⟩
abbrev pBlk (c : Dev nD) (n : ℕ) (hn : n < cfg0.N) : Vec Ideal S4x2048 .f32 := iblk m c 1 ⟨n, hn⟩

/-- The four-term product of row R of the augmented query matrix with column n of the augmented point matrix. -/
def cross (c : Dev nD) (R : Fin 32768) (n : Fin 8192) : EReal :=
  ∑ k : Fin 4, augQ m c (ix2 R k) * augP m c (ix2 k n)

/-- Row r of the row block of point n, as a row of the whole matrix. -/
abbrev rowOf (n : ℕ) (hn : n < cfg0.N) (r : Fin 1024) : Fin 32768 :=
  ⟨1024 * (n / 4) + r.val, by have := r.isLt; have : cfg0.N = 128 := N_0; omega⟩

/-- A column of point n's block is column 2048·(n%4) + k' of the whole matrix. -/
theorem blockTerm (c : Dev nD) (n : ℕ) (hn : n < cfg0.N) (r : Fin 1024) (k' : Fin 2048) :
    (∑ k : Fin 4, qBlk m c n hn (ix2 r k) * pBlk m c n hn (ix2 k k'))
      = cross m c (rowOf n hn r) ⟨2048 * (n % 4) + k'.val, by have := k'.isLt; omega⟩ := by
  unfold cross
  refine Finset.sum_congr rfl fun k _ => ?_
  have e0 := Blocks.queryBlock_apply m c ⟨n, hn⟩ r k
  have e1 := Blocks.pointBlock_apply m c ⟨n, hn⟩ k k'
  exact congr (congrArg (fun (x y : EReal) => x * y) e0) e1

/-- What the update payload does to a column that is a running minimum: one more block of columns. -/
theorem step (c : Dev nD) (n : ℕ) (hn : n < cfg0.N) (r : Fin 1024) (acc : Vec Ideal S1024x1 .f32)
    (h : IsInfBelow (cross m c (rowOf n hn r)) (2048 * (n % 4)) (acc (ix2 r (0 : Fin 1)))) :
    IsInfBelow (cross m c (rowOf n hn r)) (2048 * (n % 4) + 2048)
      (k0_pay2 (F := Ideal) (qBlk m c n hn) (pBlk m c n hn) acc (ix2 r (0 : Fin 1))) := by
  have e := Payload.pay2_apply (qBlk m c n hn) (pBlk m c n hn) acc r
  rw [Cert.Consts.ofBits_inf] at e
  have hs := h.step 2048 (by omega)
    (fun k' : Fin 2048 => ∑ k : Fin 4, qBlk m c n hn (ix2 r k) * pBlk m c n hn (ix2 k k')) (fun k' => blockTerm m c n hn r k')
  rw [e]
  exact hs

/-- The first point of a row block resets the column and updates it. -/
theorem scratch_first (c : Dev nD) (n : ℕ) (hn : n < cfg0.N) (h0 : n % 4 = 0) :
    (outsAt0 m c n hn).2 = k0_pay2 (F := Ideal) (qBlk m c n hn) (pBlk m c n hn) (k0_pay1 (F := Ideal)) :=
  (congrArg Prod.snd (outsAt0_A m c ⟨n, hn⟩ h0 (by omega : ¬n % 4 = 3))).trans
    (Pieces.scratch_A (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _)
      ((hcond0_0 ⟨n, hn⟩).mpr h0) (fun h => (by omega : ¬n % 4 = 3) ((hcond0_1 ⟨n, hn⟩).mp h)) (iblk m c 0 ⟨n, hn⟩) (iblk m c 1 ⟨n, hn⟩))

/-- A middle point updates the column the point before left. -/
theorem scratch_mid (c : Dev nD) (n : ℕ) (hn : n < cfg0.N) (h0 : ¬n % 4 = 0) (h1 : ¬n % 4 = 3) (hlt : n - 1 < cfg0.N) :
    (outsAt0 m c n hn).2 = k0_pay2 (F := Ideal) (qBlk m c n hn) (pBlk m c n hn) (outsAt0 m c (n - 1) hlt).2 :=
  (congrArg Prod.snd (outsAt0_B m c ⟨n, hn⟩ h0 h1)).trans
    (Pieces.scratch_B (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _)
      (fun h => h0 ((hcond0_0 ⟨n, hn⟩).mp h)) (fun h => h1 ((hcond0_1 ⟨n, hn⟩).mp h)) (iblk m c 0 ⟨n, hn⟩) (iblk m c 1 ⟨n, hn⟩)
      (outsAt0 m c (n - 1) hlt).2)

/-- The last point of a row block updates it in the same way, -/
theorem scratch_last (c : Dev nD) (n : ℕ) (hn : n < cfg0.N) (h0 : ¬n % 4 = 0) (h1 : n % 4 = 3) (hlt : n - 1 < cfg0.N) :
    (outsAt0 m c n hn).2 = k0_pay2 (F := Ideal) (qBlk m c n hn) (pBlk m c n hn) (outsAt0 m c (n - 1) hlt).2 :=
  (congrArg Prod.snd (outsAt0_C m c ⟨n, hn⟩ h0 h1)).trans
    (Pieces.scratch_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _)
      (fun h => h0 ((hcond0_0 ⟨n, hn⟩).mp h)) ((hcond0_1 ⟨n, hn⟩).mpr h1) (iblk m c 0 ⟨n, hn⟩) (iblk m c 1 ⟨n, hn⟩)
      (outsAt0 m c (n - 1) hlt).2)

/-- and copies the updated column into the output block. -/
theorem out_last (c : Dev nD) (n : ℕ) (hn : n < cfg0.N) (h0 : ¬n % 4 = 0) (h1 : n % 4 = 3) (hlt : n - 1 < cfg0.N) :
    (outsAt0 m c n hn).1 = k0_pay2 (F := Ideal) (qBlk m c n hn) (pBlk m c n hn) (outsAt0 m c (n - 1) hlt).2 :=
  (congrArg Prod.fst (outsAt0_C m c ⟨n, hn⟩ h0 h1)).trans
    (Pieces.out_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _)
      (fun h => h0 ((hcond0_0 ⟨n, hn⟩).mp h)) ((hcond0_1 ⟨n, hn⟩).mpr h1) (iblk m c 0 ⟨n, hn⟩) (iblk m c 1 ⟨n, hn⟩)
      (outsAt0 m c (n - 1) hlt).2)

/-- The carried column after every grid point. -/
theorem carried (c : Dev nD) : ∀ (n : ℕ) (hn : n < cfg0.N) (r : Fin 1024),
    IsInfBelow (cross m c (rowOf n hn r)) (2048 * (n % 4) + 2048) ((outsAt0 m c n hn).2 (ix2 r (0 : Fin 1))) := by
  intro n
  induction n using Nat.strong_induction_on with
  | _ n ih =>
    intro hn r
    have hN : cfg0.N = 128 := N_0
    by_cases h0 : n % 4 = 0
    · rw [scratch_first m c n hn h0]
      refine step m c n hn r (k0_pay1 (F := Ideal)) ?_
      rw [Payload.pay1_apply, Cert.Consts.ofBits_inf, h0]
      exact isInfBelow_zero _
    · have hlt : n - 1 < cfg0.N := by omega
      have hprev := ih (n - 1) (by omega) hlt r
      have hrow : rowOf (n - 1) hlt r = rowOf n hn r := Fin.ext (by show 1024 * ((n - 1) / 4) + r.val = 1024 * (n / 4) + r.val; omega)
      have hb : 2048 * ((n - 1) % 4) + 2048 = 2048 * (n % 4) := by omega
      rw [hrow, hb] at hprev
      by_cases h1 : n % 4 = 3
      · rw [scratch_last m c n hn h0 h1 hlt]
        exact step m c n hn r (outsAt0 m c (n - 1) hlt).2 hprev
      · rw [scratch_mid m c n hn h0 h1 hlt]
        exact step m c n hn r (outsAt0 m c (n - 1) hlt).2 hprev

/-- At the last point of a row block the output block holds the carried column, -/
theorem output_eq_carried (c : Dev nD) (n : ℕ) (hn : n < cfg0.N) (h1 : n % 4 = 3) :
    (outsAt0 m c n hn).1 = (outsAt0 m c n hn).2 := by
  have hN : cfg0.N = 128 := N_0
  have h0 : ¬n % 4 = 0 := by omega
  have hlt : n - 1 < cfg0.N := by omega
  exact (out_last m c n hn h0 h1 hlt).trans (scratch_last m c n hn h0 h1 hlt).symm

/-- which by then is the minimum over all 8192 columns. -/
theorem output_apply (c : Dev nD) (n : ℕ) (hn : n < cfg0.N) (h1 : n % 4 = 3) (r : Fin 1024) :
    (outsAt0 m c n hn).1 (ix2 r (0 : Fin 1))
      = (Finset.univ : Finset (Fin 8192)).fold min ⊤ (cross m c (rowOf n hn r)) := by
  rw [output_eq_carried m c n hn h1]
  have h := carried m c n hn r
  rw [h1] at h
  exact h.eq_fold

end Cert.KernelIdeal.Accum

end
-- ==== Proof.Final.lean ====
/-
  The kernel's output column after the run.

  Row R of the output column ends at the minimum, over all 8192 points n, of the four-term product s(R, n): row block
  R / 1024 is written back once, at the last of its four grid points, with the carried column of that moment.
-/
import proofs.«165794_j84224308674625_2_alg».proof.Proof.Accum
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen

variable (m : (ℓ : Loc nD τ sig) → Buf (Elt Ideal) ℓ)

/-- The column of minima: entry (R, 0) is the minimum over n of s(R, n). -/
def minColumn (c : Dev nD) : S32768x1.Idx → EReal := fun i =>
  (Finset.univ : Finset (Fin 8192)).fold min ⊤ (Accum.cross m c (⟨(i 0).val, (i 0).isLt⟩ : Fin 32768))

/-- The output block at the last point of a row block, at any entry of the block. -/
theorem block_apply (c : Dev nD) (t : Fin cfg0.N) (h3 : t.val % 4 = 3) (y : S1024x1.Idx) :
    (outsAt0 m c t.val t.isLt).1 y
      = (Finset.univ : Finset (Fin 8192)).fold min ⊤ (Accum.cross m c (Accum.rowOf t.val t.isLt (⟨(y 0).val, (y 0).isLt⟩ : Fin 1024))) := by
  have e := Accum.output_apply m c t.val t.isLt h3 (⟨(y 0).val, (y 0).isLt⟩ : Fin 1024)
  have hy : ix2 (⟨(y 0).val, (y 0).isLt⟩ : Fin 1024) (0 : Fin 1) = y := by
    funext d
    match d with
    | ⟨0, _⟩ => rfl
    | ⟨1, _⟩ => exact Subsingleton.elim (α := Fin 1) _ _
  rw [hy] at e
  exact e

/-- What a write-back writes is the block of the column of minima. -/
theorem flushed_eq (c : Dev nD) (t : Fin cfg0.N) (hf : (cfg0.win 2).flush t = true) :
    (dats m 0 c).flushed 2 t = ((cfg0.win 2).blk t).view.read (Elt Ideal) (minColumn m c) := by
  have h3 : t.val % 4 = 3 := (flush0_2 t).mp hf
  obtain ⟨-, -, -, -, e0, e1⟩ := Blocks.index_facts t
  show (cfg0.win 2).cut (grid0.coords t) ((dats m 0 c).after 2 t) = _
  rw [after0_2]
  funext j
  rw [View.read_apply]
  refine (block_apply m c t h3 j).trans ?_
  unfold minColumn
  refine congrArg (fun R => (Finset.univ : Finset (Fin 8192)).fold min ⊤ (Accum.cross m c R)) (Fin.ext ?_)
  show 1024 * (t.val / 4) + (j 0).val = win0_2.index t (0 : Fin 2) * 1024 + 1 * (j 0).val
  rw [e0]; omega

/-- An index of the output column is in point t's block iff each coordinate is in the block's range. -/
theorem mem_block (t : Fin cfg0.N) (i : S32768x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v13).slice (win0_2.rect t)).set ↔ _
  rw [View.set_slice_whole, Rect.mem_set_unit]
  exact Iff.rfl

/-- The output column after the run is the column of minima. -/
theorem final (c : Dev nD) : (dats m 0 c).arrAt 2 cfg0.N = minColumn m c :=
  (dats m 0 c).arrAt_eq_of_cover 2 (minColumn m c) (flushed_eq m c) fun i => by
    have hi0 : (i 0).val < 32768 := (i 0).isLt
    have hi1 : (i 1).val < 1 := (i 1).isLt
    have hN : cfg0.N = 128 := N_0
    have ht : 4 * ((i 0).val / 1024) + 3 < cfg0.N := by omega
    obtain ⟨-, -, -, -, e0, e1⟩ := Blocks.index_facts ⟨4 * ((i 0).val / 1024) + 3, ht⟩
    have e0' : win0_2.index ⟨4 * ((i 0).val / 1024) + 3, ht⟩ (0 : Fin 2) = (i 0).val / 1024 := by
      rw [e0]; show (4 * ((i 0).val / 1024) + 3) / 4 = (i 0).val / 1024; omega
    refine ⟨⟨4 * ((i 0).val / 1024) + 3, ht⟩, (flush0_2 _).mpr (by show (4 * ((i 0).val / 1024) + 3) % 4 = 3; omega), ?_⟩
    rw [mem_block]
    intro a
    match a with
    | ⟨0, _⟩ =>
      show win0_2.index ⟨4 * ((i 0).val / 1024) + 3, ht⟩ (0 : Fin 2) * 1024 ≤ (i 0).val ∧ (i 0).val < win0_2.index ⟨4 * ((i 0).val / 1024) + 3, ht⟩ (0 : Fin 2) * 1024 + 1024
      rw [e0']; omega
    | ⟨1, _⟩ =>
      show win0_2.index ⟨4 * ((i 0).val / 1024) + 3, ht⟩ (1 : Fin 2) * 1 ≤ (i 1).val ∧ (i 1).val < win0_2.index ⟨4 * ((i 0).val / 1024) + 3, ht⟩ (1 : Fin 2) * 1 + 1
      rw [e1]; omega

end Cert.KernelIdeal.Final

end
-- ==== Proof.LibHostRead.lean ====
/-
  Reading a buffer after a line of host operations.

  `StableHlo.after ops V b` is what buffer b holds once the operations have run in order from contents V: the last
  operation that writes b applied to what its operands held then, and so on back to V.  The tactic below computes
  that term for a literal list of operations.  It first runs the library's one-pass simplification; a read that ends
  up inside the operand list of a concatenate is not reached by it, so the library's rewriting loop goes on from
  there; operations of an inlined call carry their values through casts along an equation between a buffer's type and
  itself, which are then removed.  What is left is an equation between terms of the pure operations.
-/
import Idealize.ShloMosaic.Lib.StableHlo.Run

namespace Cert.HostRead

open Idealize.ShloMosaic Idealize.ShloMosaic.StableHlo

/-- Running one line of operations after another is running their concatenation. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

/-- Computes `StableHlo.after ops V b` for a literal list `ops` down to the pure operations over `V`. -/
macro "read_after" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))
             try simp only [TRef.toBuf, TRef.ofBuf]
             repeat rw [cast_eq]))

end Cert.HostRead
-- ==== Proof.Spec.lean ====
/-
  The nearest-point law, for one query point.

  For a query point q and N points p n in three dimensions, the squared distance to the nearest of them, clamped
  at zero, is written in two arrangements.  One forms, for every n, |q|² + |p n|² − 2·(q · p n), clamps it at zero and
  takes the minimum over n.  The other takes the minimum over n of the four-term product (−2q, 1) · (p n, |p n|²),
  adds |q|² once, and clamps once.  For real coordinates the two agree: per n the sums are one real number by the
  ring laws, adding a real and clamping at zero are monotone maps that fix +∞, and such maps commute with a minimum
  taken from +∞.
-/
import Mathlib.Data.EReal.Operations
import Mathlib.Algebra.BigOperators.Fin
import Mathlib.Tactic.Ring
import proofs.«165794_j84224308674625_2_alg».proof.Proof.LibFoldMin

noncomputable section

open scoped BigOperators

namespace Cert.Spec

variable {N : ℕ}

/-- The squared norm of a point, as both programs sum it: from the zero word `z`. -/
def sqNorm (z : EReal) (v : Fin 3 → EReal) : EReal := z + ∑ k : Fin 3, v k * v k

/-- The four-term product of the augmented query (`m2`·q, `one`) with the augmented point (p, |p|²). -/
def augDot (z one m2 : EReal) (q v : Fin 3 → EReal) : EReal :=
  (m2 * q 0) * v 0 + (m2 * q 1) * v 1 + (m2 * q 2) * v 2 + one * sqNorm z v

/-- The arrangement that clamps once, after the minimum. -/
def clampAfter (z one m2 : EReal) (q : Fin 3 → EReal) (p : Fin N → Fin 3 → EReal) : EReal :=
  max (sqNorm z q + (Finset.univ : Finset (Fin N)).fold min ⊤ (fun n => augDot z one m2 q (p n))) z

/-- The arrangement that clamps every squared distance, before the minimum. -/
def clampBefore (z two : EReal) (q : Fin 3 → EReal) (p : Fin N → Fin 3 → EReal) : EReal :=
  (Finset.univ : Finset (Fin N)).fold min ⊤
    (fun n => max ((sqNorm z q + sqNorm z (p n)) - two * ∑ k : Fin 3, q k * p n k) z)

/-- For real coordinates the two arrangements agree. -/
theorem clampAfter_eq_clampBefore (z one m2 two : EReal) (hz : z = ((0 : ℝ) : EReal)) (h1 : one = ((1 : ℝ) : EReal))
    (hm2 : m2 = ((-2 : ℝ) : EReal)) (h2 : two = ((2 : ℝ) : EReal))
    (q : Fin 3 → EReal) (p : Fin N → Fin 3 → EReal) (hq : ∀ k, ∃ r : ℝ, q k = r) (hp : ∀ n k, ∃ r : ℝ, p n k = r) :
    clampAfter z one m2 q p = clampBefore z two q p := by
  choose qr hqr using hq
  choose pr hpr using hp
  subst hz h1 hm2 h2
  unfold clampAfter clampBefore
  have hQ : sqNorm ((0 : ℝ) : EReal) q = ((qr 0 * qr 0 + qr 1 * qr 1 + qr 2 * qr 2 : ℝ) : EReal) := by
    unfold sqNorm
    simp only [hqr, Fin.sum_univ_three, ← EReal.coe_mul, ← EReal.coe_add]
    congr 1; ring
  rw [hQ]
  have hmono : Monotone (fun x : EReal => max (((qr 0 * qr 0 + qr 1 * qr 1 + qr 2 * qr 2 : ℝ) : EReal) + x) ((0 : ℝ) : EReal)) :=
    fun a b hab => max_le_max (add_le_add le_rfl hab) le_rfl
  have htop : (fun x : EReal => max (((qr 0 * qr 0 + qr 1 * qr 1 + qr 2 * qr 2 : ℝ) : EReal) + x) ((0 : ℝ) : EReal)) ⊤ = ⊤ := by
    show max (((qr 0 * qr 0 + qr 1 * qr 1 + qr 2 * qr 2 : ℝ) : EReal) + ⊤) _ = ⊤
    rw [EReal.coe_add_top]; exact max_eq_left le_top
  refine (Cert.FoldMin.map_fold _ _ _ hmono htop).trans (Finset.fold_congr fun n _ => ?_)
  show max (_ + augDot _ _ _ q (p n)) _ = max (_ + sqNorm _ (p n) - _) _
  refine congrArg (fun x => max x ((0 : ℝ) : EReal)) ?_
  unfold augDot sqNorm
  simp only [hqr, hpr, Fin.sum_univ_three, ← EReal.coe_mul, ← EReal.coe_add, ← EReal.coe_sub]
  congr 1; ring

end Cert.Spec

end
-- ==== Proof.HostPre.lean ====
/-
  What the host lines before the kernel leave in the arrays the kernel reads.

  With q the query points (the first argument viewed as 32768 rows of three coordinates) and p the 8192 points:
  the column of squared norms |q r|²; the augmented query matrix, whose row r is (−2·q r, 1); and the augmented point
  matrix, whose column n is (p n, |p n|²).
-/
import proofs.«165794_j84224308674625_2_alg».proof.Proof.Gen.KernelIdeal.Frame
import proofs.«165794_j84224308674625_2_alg».proof.Proof.LibHostRead
import proofs.«165794_j84224308674625_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal
import Idealize.ShloMosaic.PureOps.Ideal.Laws

noncomputable section

open Idealize.ShloMosaic Idealize.ShloMosaic.TcCoe Idealize.SL.Sem Idealize.ShloMosaic.StableHlo Idealize.ShloMosaic.ValueIdx

namespace Cert.KernelIdeal.HostPre

open Cert.KernelIdeal Cert.KernelIdeal.Gen

variable (m : (ℓ : Loc nD τ sig) → Buf (Elt Ideal) ℓ)

/-- The query points: the first argument as 32768 rows of three coordinates. -/
abbrev queries (c : Dev nD) : FVec Ideal S32768x3 .f32 :=
  shapeCast S32768x3 (m ((c : Thread nD τ).loc main_arg0)) shapeCasts_S8x4096x3_S32768x3

/-- The points. -/
abbrev points (c : Dev nD) : FVec Ideal S8192x3 .f32 := m ((c : Thread nD τ).loc main_arg1)

/-- The squared norms of the rows of an [a, 3] matrix, as the host sums them. -/
theorem rowNorms_apply {a : ℕ} (y : FVec Ideal ⟨2, ![a, 3]⟩ .f32) (h' : (⟨2, ![a, 3]⟩ : Shape).ReducesTo [1] ⟨1, ![a]⟩)
    (h : (⟨2, ![a, 3]⟩ : Shape).Reduces [1] ⟨1, ![a]⟩) (hu : 0 < S_.numel) (r : Fin a) :
    Host.reduceAdd (F := Ideal) (mulf (F := Ideal) y y) (constant (F := Ideal) S_ .f32 0x00000000#32) h' hu (ix1 r)
      = Cert.Spec.sqNorm (Ideal.ofBits .f32 0x00000000#32) (fun k => y (ix2 r k)) := by
  simp only [Host.reduceAdd, Ideal.hostReduceAdd_def]
  rw [Ideal.hostReduceAdd_single h' h]
  unfold Cert.Spec.sqNorm
  refine congrArg (_ + ·) (Finset.sum_congr rfl fun k _ => ?_)
  have e : h.lift (ix1 r) k = ix2 r (⟨k.val, k.isLt⟩ : Fin 3) := by
    funext d; apply Fin.ext
    fin_cases d <;> rfl
  rw [e]
  rfl

/-- A vector broadcast into a column reads its own entry. -/
theorem column_apply {a : ℕ} (ha : a ≠ 1) (y : FVec Ideal ⟨1, ![a]⟩ .f32)
    (h : (⟨1, ![a]⟩ : Shape).BroadcastsInDim ⟨2, ![a, 1]⟩ (![0] : Fin 1 → Fin 2)) (r : Fin a) :
    broadcastInDim ⟨2, ![a, 1]⟩ ![0] h y (ix2 r (0 : Fin 1)) = y (ix1 r) :=
  broadcastInDim_apply _ h y (ix2 r (0 : Fin 1)) (ix1 r) (fun d => match d with
    | ⟨0, _⟩ => by show r.val = if a = 1 then 0 else r.val; rw [if_neg ha])

/-- A scalar broadcast reads the scalar. -/
theorem scalar_apply {s : Shape} (w : BitVec 32) (h : S_.BroadcastsInDim s (![] : Fin 0 → Fin s.rank)) (i : s.Idx) :
    broadcastInDim s ![] h (constant (F := Ideal) S_ .f32 w) i = Ideal.ofBits .f32 w :=
  broadcastInDim_apply _ h (constant (F := Ideal) S_ .f32 w) i (fun d => d.elim0) (fun d => d.elim0)

/-- The column of squared query norms. -/
theorem norms_apply (c : Dev nD) (r : Fin 32768) :
    (V m c main_v3 : FVec Ideal S32768x1 .f32) (ix2 r (0 : Fin 1))
      = Cert.Spec.sqNorm (Ideal.ofBits .f32 0x00000000#32) (fun k => queries m c (ix2 r k)) := by
  have e : (V m c main_v3 : FVec Ideal S32768x1 .f32)
      = broadcastInDim S32768x1 ![0] bcast_S32768_S32768x1_0
          (Host.reduceAdd (F := Ideal) (mulf (F := Ideal) (queries m c) (queries m c)) (constant (F := Ideal) S_ .f32 0x00000000#32) reducesTo_S32768x3_S32768_d1 h_S_) := by
    show StableHlo.after hostOps0 (fun b => m (c, b)) (Proc.devRef .tc main_v3) = _
    read_after <;> rfl
  rw [e, column_apply (by decide)]
  exact rowNorms_apply (queries m c) reducesTo_S32768x3_S32768_d1 (by decide) h_S_ r

/-- The augmented query matrix. -/
theorem augQueries_eq (c : Dev nD) : (V m c main_v7 : FVec Ideal S32768x4 .f32)
    = concatenate S32768x4 1
        [⟨S32768x3, mulf (F := Ideal) (broadcastInDim S32768x3 ![] bcast_S_S32768x3 (constant (F := Ideal) S_ .f32 0xC0000000#32)) (queries m c)⟩,
          ⟨S32768x1, broadcastInDim S32768x1 ![] bcast_S_S32768x1 (constant (F := Ideal) S_ .f32 0x3F800000#32)⟩]
        concatenates_S32768x3_S32768x1_S32768x4_d1 := by
  show StableHlo.after hostOps0 (fun b => m (c, b)) (Proc.devRef .tc main_v7) = _
  read_after <;> rfl

/-- Its first three columns hold −2·q. -/
theorem augQueries_apply_lt (c : Dev nD) (r : Fin 32768) (k : Fin 4) (hk : k.val < 3) :
    (V m c main_v7 : FVec Ideal S32768x4 .f32) (ix2 r k)
      = Ideal.ofBits .f32 0xC0000000#32 * queries m c (ix2 r (⟨k.val, hk⟩ : Fin 3)) := by
  rw [augQueries_eq]
  refine (concatenate_pair_apply_left (t := S32768x4) (s₁ := S32768x3) (s₂ := S32768x1) (1 : Fin 2) _ _ concatenates_S32768x3_S32768x1_S32768x4_d1 (ix2 r k) rfl
    (ix2 r (⟨k.val, hk⟩ : Fin 3)) (fun b => match b with | ⟨0, _⟩ => rfl | ⟨1, _⟩ => rfl)).trans ?_
  rw [mulf_apply, scalar_apply]

/-- Its fourth column holds 1. -/
theorem augQueries_apply_last (c : Dev nD) (r : Fin 32768) :
    (V m c main_v7 : FVec Ideal S32768x4 .f32) (ix2 r (3 : Fin 4)) = Ideal.ofBits .f32 0x3F800000#32 := by
  rw [augQueries_eq]
  refine (concatenate_pair_apply_right (t := S32768x4) (s₁ := S32768x3) (s₂ := S32768x1) (1 : Fin 2) _ _ concatenates_S32768x3_S32768x1_S32768x4_d1 (ix2 r (3 : Fin 4)) rfl rfl
    (ix2 r (0 : Fin 1)) (fun b hb => match b with | ⟨0, _⟩ => rfl | ⟨1, _⟩ => absurd rfl hb) rfl).trans ?_
  exact scalar_apply _ _ _

/-- The augmented point matrix. -/
theorem augPoints_eq (c : Dev nD) : (V m c main_v12 : FVec Ideal S4x8192 .f32)
    = transpose S4x8192 [1, 0]
        (concatenate S8192x4 1
          [⟨S8192x3, points m c⟩,
            ⟨S8192x1, broadcastInDim S8192x1 ![0] bcast_S8192_S8192x1_0
              (Host.reduceAdd (F := Ideal) (mulf (F := Ideal) (points m c) (points m c)) (constant (F := Ideal) S_ .f32 0x00000000#32) reducesTo_S8192x3_S8192_d1 h_S_)⟩]
          concatenates_S8192x3_S8192x1_S8192x4_d1)
        transposes_S8192x4_S4x8192_1_0 := by
  show StableHlo.after hostOps0 (fun b => m (c, b)) (Proc.devRef .tc main_v12) = _
  read_after <;> rfl

/-- Its first three rows hold the points' coordinates. -/
theorem augPoints_apply_lt (c : Dev nD) (k : Fin 4) (hk : k.val < 3) (n : Fin 8192) :
    (V m c main_v12 : FVec Ideal S4x8192 .f32) (ix2 k n) = points m c (ix2 n (⟨k.val, hk⟩ : Fin 3)) := by
  rw [augPoints_eq, transpose_ix2_apply]
  exact concatenate_pair_apply_left (t := S8192x4) (s₁ := S8192x3) (s₂ := S8192x1) (1 : Fin 2) _ _ concatenates_S8192x3_S8192x1_S8192x4_d1 (ix2 n k) rfl
    (ix2 n (⟨k.val, hk⟩ : Fin 3)) (fun b => match b with | ⟨0, _⟩ => rfl | ⟨1, _⟩ => rfl)

/-- Its fourth row holds the points' squared norms. -/
theorem augPoints_apply_last (c : Dev nD) (n : Fin 8192) :
    (V m c main_v12 : FVec Ideal S4x8192 .f32) (ix2 (3 : Fin 4) n)
      = Cert.Spec.sqNorm (Ideal.ofBits .f32 0x00000000#32) (fun k => points m c (ix2 n k)) := by
  rw [augPoints_eq, transpose_ix2_apply]
  refine (concatenate_pair_apply_right (t := S8192x4) (s₁ := S8192x3) (s₂ := S8192x1) (1 : Fin 2) _ _ concatenates_S8192x3_S8192x1_S8192x4_d1 (ix2 n (3 : Fin 4)) rfl rfl
    (ix2 n (0 : Fin 1)) (fun b hb => match b with | ⟨0, _⟩ => rfl | ⟨1, _⟩ => absurd rfl hb) rfl).trans ?_
  rw [column_apply (by decide)]
  exact rowNorms_apply (points m c) reducesTo_S8192x3_S8192_d1 (by decide) h_S_ n

end Cert.KernelIdeal.HostPre

end
-- ==== Proof.KernelSide.lean ====
/-
  The kernel program, end to end.

  After the kernel the host adds the squared query norm to each row's minimum, clamps at zero, takes the square root,
  subtracts the radius and takes the minimum over each group of 4096 query points.  Before the square root, row R
  holds the clamp-after-minimum arrangement of the nearest-point law for query point R.
-/
import proofs.«165794_j84224308674625_2_alg».proof.Proof.Final
import proofs.«165794_j84224308674625_2_alg».proof.Proof.HostPre
import proofs.«165794_j84224308674625_2_alg».proof.Proof.Spec
import proofs.«165794_j84224308674625_2_alg».proof.Proof.LibHostRead
import proofs.«165794_j84224308674625_2_alg».proof.Proof.LibColumns

set_option maxHeartbeats 1000000

noncomputable section

open Idealize.ShloMosaic Idealize.ShloMosaic.TcCoe Idealize.SL.Sem Idealize.ShloMosaic.StableHlo Idealize.ShloMosaic.ValueIdx
open Idealize.ShloMosaic.Pipeline (Dat)

namespace Cert.KernelIdeal.KernelSide

open Cert.KernelIdeal Cert.KernelIdeal.Gen

variable (m : (ℓ : Loc nD τ sig) → Buf (Elt Ideal) ℓ) (ρ : Dev nD → PrngReg)

/-- The four-term product of the two augmented matrices is the augmented product of the law. -/
theorem cross_eq (c : Dev nD) (R : Fin 32768) (n : Fin 8192) :
    Accum.cross m c R n
      = Cert.Spec.augDot (Ideal.ofBits .f32 0x00000000#32) (Ideal.ofBits .f32 0x3F800000#32) (Ideal.ofBits .f32 0xC0000000#32)
          (fun k => HostPre.queries m c (ix2 R k)) (fun k => HostPre.points m c (ix2 n k)) := by
  unfold Accum.cross
  rw [Fin.sum_univ_four]
  dsimp only [Accum.augQ, Accum.augP]
  rw [HostPre.augQueries_apply_lt m c R 0 (by decide), HostPre.augQueries_apply_lt m c R 1 (by decide),
    HostPre.augQueries_apply_lt m c R 2 (by decide), HostPre.augQueries_apply_last m c R,
    HostPre.augPoints_apply_lt m c 0 (by decide) n, HostPre.augPoints_apply_lt m c 1 (by decide) n,
    HostPre.augPoints_apply_lt m c 2 (by decide) n, HostPre.augPoints_apply_last m c n]
  rfl

/-- Row R of the kernel's output column is the minimum of the law's augmented products. -/
theorem minColumn_apply (c : Dev nD) (R : Fin 32768) :
    Final.minColumn m c (ix2 R (0 : Fin 1))
      = (Finset.univ : Finset (Fin 8192)).fold min ⊤ (fun n =>
          Cert.Spec.augDot (Ideal.ofBits .f32 0x00000000#32) (Ideal.ofBits .f32 0x3F800000#32) (Ideal.ofBits .f32 0xC0000000#32)
            (fun k => HostPre.queries m c (ix2 R k)) (fun k => HostPre.points m c (ix2 n k))) :=
  Finset.fold_congr fun n _ => cross_eq m c R n

/-- The column the host holds before the square root: squared norm plus minimum, clamped at zero. -/
def clamped (c : Dev nD) : FVec Ideal S32768 .f32 :=
  shapeCast S32768
    (maximumf (F := Ideal) (addf (F := Ideal) (V m c main_v3) (Final.minColumn m c))
      (broadcastInDim S32768x1 ![] bcast_S_S32768x1 (constant (F := Ideal) S_ .f32 0x00000000#32)))
    shapeCasts_S32768x1_S32768

/-- Row R of it is the clamp-after-minimum arrangement for query point R. -/
theorem clamped_apply (c : Dev nD) (R : Fin 32768) :
    clamped m c (ix1 R)
      = Cert.Spec.clampAfter (Ideal.ofBits .f32 0x00000000#32) (Ideal.ofBits .f32 0x3F800000#32) (Ideal.ofBits .f32 0xC0000000#32)
          (fun k => HostPre.queries m c (ix2 R k)) (fun (n : Fin 8192) k => HostPre.points m c (ix2 n k)) := by
  unfold clamped
  rw [Cert.LibColumns.shapeCast_a1_a_apply, maximumf_apply, addf_apply, HostPre.scalar_apply, HostPre.norms_apply,
    minColumn_apply]
  rfl

/-- The program's result from that column: square root, minus the radius, minimum over each group. -/
def result (c : Dev nD) : FVec Ideal S8 .f32 :=
  Host.reduce FloatOps.minimumf
    (shapeCast S8x4096
      (subf (F := Ideal) (Host.sqrt (F := Ideal) (clamped m c)) (broadcastInDim S32768 ![] bcast_S_S32768 (V m c main_arg2)))
      shapeCasts_S32768_S8x4096)
    (constant (F := Ideal) S_ .f32 0x7F800000#32) reducesTo_S8x4096_S8_d1 h_S_

/-- The host lines after the kernel compute it from the kernel's output column. -/
theorem tail_eq (c : Dev nD) :
    (Pipeline.afterTail₀ cfgs (dats m) 0 (V0 m) [hostOps1] c main_v22 : FVec Ideal S8 .f32) = result m c := by
  unfold Pipeline.afterTail₀
  show StableHlo.after hostOps1 _ (Proc.devRef .tc main_v22) = _
  read_after
  rw [Pipeline.withArrays_of_ne _ c (V0 m c) _ main_v3 (by exact (by decide : ∀ w, Pipeline.arrRef spec0 w ≠ main_v3)),
    Pipeline.withArrays_of_ne _ c (V0 m c) _ main_arg2 (by exact (by decide : ∀ w, Pipeline.arrRef spec0 w ≠ main_arg2))]
  have e13 : Pipeline.withArrays (cfgs 0).spec c (V0 m c) (fun w => (dats m 0 c).arrAt w (cfgs 0).N) (Proc.devRef .tc main_v13)
      = (dats m 0 c).arrAt 2 cfg0.N :=
    Pipeline.withArrays_arr spec0 launch0.win.arr_inj c (V0 m c) (fun w => (dats m 0 c).arrAt w cfg0.N) 2
  rw [e13, Final.final]
  rfl

/-- The run of the kernel program: the result at `result`, the arguments unchanged. -/
theorem run : θ_run defs (onTc (τ := τ) (main (F := Ideal))) ⟨m, fun _ => 0, ρ⟩ fun r => ∀ c : Dev nD,
      r.2.mem ((c.tc : Thread nD τ).loc main_v22) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v22 (Pipeline.mem_restRefs_of main_v22 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelSide

end
-- ==== Proof.RefSide.lean ====
/-
  The reference, row by row.

  Before its square root the reference holds, for query point r, the minimum over the 8192 points n of
  max(|q r|² + |p n|² − 2·(q r · p n), 0): the arrangement that clamps every squared distance before the minimum.
-/
import proofs.«165794_j84224308674625_2_alg».proof.Defs
import proofs.«165794_j84224308674625_2_alg».proof.Proof.Gen.ReferenceIdeal.Run
import proofs.«165794_j84224308674625_2_alg».proof.Proof.Gen.ReferenceIdeal.Read
import proofs.«165794_j84224308674625_2_alg».proof.Proof.Spec
import proofs.«165794_j84224308674625_2_alg».proof.Proof.Consts
import Idealize.ShloMosaic.PureOps.Ideal.Laws

noncomputable section

open Idealize.ShloMosaic Idealize.ShloMosaic.ValueIdx

namespace Cert.ReferenceIdeal.RefSide

open Cert.ReferenceIdeal Cert.ReferenceIdeal.Gen Cert.ReferenceIdeal.Read

/-- Query point r of the reduced vector with point n put back is entry (r, n) of the distance matrix. -/
theorem lift_row (h : S32768x8192.Reduces [1] S32768) (r : Fin 32768) (n : Fin (S32768x8192.size 1)) :
    h.lift (ix1 r) n = ix2 r (⟨n.val, n.isLt⟩ : Fin 8192) := by
  funext c; apply Fin.ext
  fin_cases c <;> rfl

/-- One clamped squared distance, entry (r, n) of the matrix the reference minimises over n. -/
theorem clamped_apply (x0 : (⟨S8x4096x3, .f32⟩ : BufTy).Contents (Elt Ideal)) (x1 : (⟨S8192x3, .f32⟩ : BufTy).Contents (Elt Ideal))
    (r : Fin 32768) (n : Fin 8192) :
    val_main_v16 (F := Ideal) x0 x1 (ix2 r n)
      = max ((Cert.Spec.sqNorm (Ideal.ofBits .f32 0x00000000#32) (fun k => val_main_v0 (F := Ideal) x0 (ix2 r k))
            + Cert.Spec.sqNorm (Ideal.ofBits .f32 0x00000000#32) (fun k => x1 (ix2 n k)))
          - Ideal.ofBits .f32 0x40000000#32 * ∑ k : Fin 3, val_main_v0 (F := Ideal) x0 (ix2 r k) * x1 (ix2 n k))
        (Ideal.ofBits .f32 0x00000000#32) := by
  have e1 : ∀ k : Fin 3, idx_main_v2 (idx_main_v3 (idx_main_v7 (ix2 r n))) k = ix2 r k :=
    fun k => funext fun a => Fin.ext (by match a with | ⟨0, _⟩ => rfl | ⟨1, _⟩ => rfl)
  have e2 : ∀ k : Fin 3, idx_main_v5 (idx_main_v6 (idx_main_v8 (ix2 r n))) k = ix2 n k :=
    fun k => funext fun a => Fin.ext (by match a with | ⟨0, _⟩ => rfl | ⟨1, _⟩ => rfl)
  have e3 : ∀ k : Fin 3, lidx_main_v11 (ix2 r n) k = ix2 r k :=
    fun k => funext fun a => Fin.ext (by match a with | ⟨0, _⟩ => rfl | ⟨1, _⟩ => rfl)
  have e4 : ∀ k : Fin 3, idx_main_v10 (ridx_main_v11 (ix2 r n) k) = ix2 n k :=
    fun k => funext fun a => Fin.ext (by match a with | ⟨0, _⟩ => rfl | ⟨1, _⟩ => rfl)
  rw [val_main_v16_apply, val_main_v14_apply, val_main_v9_apply, val_main_v13_apply, val_main_v7_apply, val_main_v8_apply,
    val_main_v3_apply, val_main_v6_apply, val_main_v2_apply, val_main_v5_apply, val_main_v11_apply, val_main_v12_apply,
    val_main_v15_apply]
  simp only [e1, e2, e3, e4, val_main_v1_apply, val_main_v4_apply, val_main_v10_apply, val_main_cst_apply, val_main_cst_0_apply,
    val_main_cst_1_apply, val_main_cst_2_apply, Ideal.mulf_def, Ideal.addf_def, Ideal.subf_def, Ideal.maximumf_def, Ideal.ofBits_def]
  rfl

/-- The reference's minimum for query point r is the clamp-before-minimum arrangement of the nearest-point law. -/
theorem row_apply (x0 : (⟨S8x4096x3, .f32⟩ : BufTy).Contents (Elt Ideal)) (x1 : (⟨S8192x3, .f32⟩ : BufTy).Contents (Elt Ideal))
    (r : Fin 32768) :
    val_main_v17 (F := Ideal) x0 x1 (ix1 r)
      = Cert.Spec.clampBefore (Ideal.ofBits .f32 0x00000000#32) (Ideal.ofBits .f32 0x40000000#32)
          (fun k => val_main_v0 (F := Ideal) x0 (ix2 r k)) (fun (n : Fin 8192) k => x1 (ix2 n k)) := by
  unfold val_main_v17
  refine (Host.reduce_eq_fold_single FloatOps.minimumf _ _ reducesTo_S32768x8192_S32768_d1 (by decide) h_S_ (ix1 r)).trans ?_
  unfold Cert.Spec.clampBefore
  show Finset.fold min (Ideal.ofBits .f32 0x7F800000#32) _ _ = _
  rw [Cert.Consts.ofBits_inf]
  refine Finset.fold_congr fun n _ => ?_
  show val_main_v16 (F := Ideal) x0 x1 (Shape.Reduces.lift _ (ix1 r) n) = _
  rw [lift_row]
  exact clamped_apply x0 x1 r ⟨n.val, n.isLt⟩

end Cert.ReferenceIdeal.RefSide

end
-- ==== Proof.Finite.lean ====
/-
  From the precondition to real entries.

  The precondition says that every entry of the three arguments has absolute value below +∞.  An extended real
  whose absolute value is below +∞ is a real number.
-/
import proofs.«165794_j84224308674625_2_alg».proof.Defs
import proofs.«165794_j84224308674625_2_alg».proof.Proof.Consts
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

open Idealize.ShloMosaic

namespace Cert.Finite

instance : Subsingleton Cert.Pre_finite_inputs.S_.Idx := ⟨fun a b => funext fun d => d.elim0⟩

/-- An extended real whose absolute value is below +∞ is a real number. -/
theorem real_of_abs_lt (x : EReal) (h : Ideal.cmp .olt (max x (-x)) (Ideal.ofBits .f32 0x7F800000#32) = 1#1) :
    ∃ r : ℝ, x = r := by
  rw [Cert.Consts.ofBits_inf] at h
  induction x using EReal.rec with
  | bot => exfalso; revert h; simp [Ideal.cmp]
  | coe r => exact ⟨r, rfl⟩
  | top => exfalso; revert h; simp [Ideal.cmp]

variable [hP : Cert.Pre_finite_inputs.Facts]

/-- A comparison of an absolute value against the broadcast +∞, read at an entry. -/
theorem real_of_entry {s : Shape} (a : FVec Ideal s .f32) (hb : Cert.Pre_finite_inputs.S_.BroadcastsInDim s (![] : Fin 0 → Fin s.rank)) (i : s.Idx)
    (e : cmpf .olt (Host.absf a) (broadcastInDim s ![] hb (constant (F := Ideal) Cert.Pre_finite_inputs.S_ .f32 0x7F800000#32)) i = 1#1) :
    ∃ r : ℝ, a i = r := by
  have hv : broadcastInDim s ![] hb (constant (F := Ideal) Cert.Pre_finite_inputs.S_ .f32 0x7F800000#32) i = Ideal.ofBits .f32 0x7F800000#32 :=
    broadcastInDim_apply _ hb (constant (F := Ideal) Cert.Pre_finite_inputs.S_ .f32 0x7F800000#32) i (fun d => d.elim0) (fun d => d.elim0)
  refine real_of_abs_lt (a i) ?_
  rw [← hv]
  exact e

/-- Under the precondition every entry of the first two arguments is a real number. -/
theorem entries_real (a0 : FVec Ideal Cert.Pre_finite_inputs.S8x4096x3 .f32) (a1 : FVec Ideal Cert.Pre_finite_inputs.S8192x3 .f32)
    (a2 : FVec Ideal Cert.Pre_finite_inputs.S_ .f32)
    (h : Cert.Pre_finite_inputs.fn (F := Ideal) a0 a1 a2 = fun _ => 1#1) :
    (∀ i, ∃ r : ℝ, a0 i = r) ∧ (∀ i, ∃ r : ℝ, a1 i = r) := by
  have h0 := congrFun h ValueIdx.ix0
  dsimp only [Cert.Pre_finite_inputs.fn] at h0
  have h1 := (IntOp.andi_eq_one.mp h0).1
  have h2 := IntOp.andi_eq_one.mp h1
  exact ⟨fun i => real_of_entry a0 _ i (Host.reduce_andi_all _ _ _ _ _ h2.1 i),
    fun i => real_of_entry a1 _ i (Host.reduce_andi_all _ _ _ _ _ h2.2 i)⟩

end Cert.Finite

end
-- ==== Proof.Bridge.lean ====
/-
  The two programs compute one function of real inputs.

  Row by row, the column the kernel program holds before its square root is the clamp-after-minimum arrangement of
  the nearest-point law, and the reference's is the clamp-before-minimum arrangement: equal for real coordinates.
  After that the two programs take the same square root, subtract the same radius — one before and one after viewing
  the 32768 values as 8 groups of 4096, which does not matter entry by entry — and take the same minimum per group.
-/
import proofs.«165794_j84224308674625_2_alg».proof.Proof.KernelSide
import proofs.«165794_j84224308674625_2_alg».proof.Proof.RefSide
import proofs.«165794_j84224308674625_2_alg».proof.Proof.Finite
import proofs.«165794_j84224308674625_2_alg».proof.Proof.Gen.Pre_finite_inputs

noncomputable section

open Idealize.ShloMosaic Idealize.ShloMosaic.TcCoe Idealize.SL.Sem Idealize.ShloMosaic.ValueIdx

namespace Cert.Bridge

/-- Subtracting a broadcast scalar commutes with a change of shape. -/
theorem sub_scalar_reshape {s t : Shape} (a : FVec Ideal s .f32) (rad : FVec Ideal ⟨0, ![]⟩ .f32)
    (h1 : (⟨0, ![]⟩ : Shape).BroadcastsInDim s (![] : Fin 0 → Fin s.rank))
    (h2 : (⟨0, ![]⟩ : Shape).BroadcastsInDim t (![] : Fin 0 → Fin t.rank)) (hc : s.ShapeCasts t) :
    shapeCast t (subf (F := Ideal) a (broadcastInDim s ![] h1 rad)) hc
      = subf (F := Ideal) (shapeCast t a hc) (broadcastInDim t ![] h2 rad) := by
  funext i
  show a (Shape.reshapeEquiv hc i) - broadcastInDim s ![] h1 rad (Shape.reshapeEquiv hc i)
    = a (Shape.reshapeEquiv hc i) - broadcastInDim t ![] h2 rad i
  rw [broadcastInDim_apply _ h1 rad _ (fun d => d.elim0) (fun d => d.elim0),
    broadcastInDim_apply _ h2 rad i (fun d => d.elim0) (fun d => d.elim0)]

variable (m : (ℓ : Loc Cert.KernelIdeal.nD Cert.KernelIdeal.τ Cert.KernelIdeal.sig) → Buf (Elt Ideal) ℓ)

/-- Before the square root the two programs hold the same column, when the coordinates are real. -/
theorem clamped_eq (c : Dev Cert.KernelIdeal.nD)
    (hq : ∀ i, ∃ r : ℝ, m ((c.tc : Thread Cert.KernelIdeal.nD Cert.KernelIdeal.τ).loc Cert.KernelIdeal.main_arg0) i = ((r : ℝ) : EReal))
    (hp : ∀ i, ∃ r : ℝ, m ((c.tc : Thread Cert.KernelIdeal.nD Cert.KernelIdeal.τ).loc Cert.KernelIdeal.main_arg1) i = ((r : ℝ) : EReal)) :
    Cert.KernelIdeal.KernelSide.clamped m c
      = Cert.ReferenceIdeal.Read.val_main_v17 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  funext i
  obtain ⟨R, rfl⟩ : ∃ R : Fin 32768, i = ix1 R := ⟨i 0, eq_ix1 i⟩
  rw [Cert.KernelIdeal.KernelSide.clamped_apply]
  refine Eq.trans ?_ (Cert.ReferenceIdeal.RefSide.row_apply _ _ R).symm
  exact Cert.Spec.clampAfter_eq_clampBefore _ _ _ _ Cert.Consts.ofBits_zero Cert.Consts.ofBits_one Cert.Consts.ofBits_neg_two
    Cert.Consts.ofBits_two _ _ (fun k => hq _) (fun n k => hp _)

/-- So the two programs' results agree. -/
theorem result_eq (c : Dev Cert.KernelIdeal.nD)
    (hq : ∀ i, ∃ r : ℝ, m ((c.tc : Thread Cert.KernelIdeal.nD Cert.KernelIdeal.τ).loc Cert.KernelIdeal.main_arg0) i = ((r : ℝ) : EReal))
    (hp : ∀ i, ∃ r : ℝ, m ((c.tc : Thread Cert.KernelIdeal.nD Cert.KernelIdeal.τ).loc Cert.KernelIdeal.main_arg1) i = ((r : ℝ) : EReal)) :
    Cert.KernelIdeal.KernelSide.result m c
      = Cert.ReferenceIdeal.Read.val_main_v22 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  unfold Cert.KernelIdeal.KernelSide.result Cert.ReferenceIdeal.Read.val_main_v22 Cert.ReferenceIdeal.Read.val_main_v21 Cert.ReferenceIdeal.Read.val_main_v19 Cert.ReferenceIdeal.Read.val_main_v18
    Cert.ReferenceIdeal.Read.val_main_v20 Cert.ReferenceIdeal.Read.val_main_cst_4
  rw [clamped_eq m c hq hp, Cert.KernelIdeal.Gen.V_main_arg2 m c,
    sub_scalar_reshape _ _ Cert.KernelIdeal.Gen.bcast_S_S32768 Cert.ReferenceIdeal.Gen.bcast_S_S8x4096 Cert.KernelIdeal.Gen.shapeCasts_S32768_S8x4096]

end Cert.Bridge

end
-- ==== Proof.lean ====
/- The certificate of the nearest-point kernel against its reference.

   The kernel program folds the squared point norms, the factor −2 and the constant 1 into a four-column product, keeps
   a running minimum of that product over the points while the grid walks the column blocks, and adds the squared query
   norm, clamps at zero and takes the square root afterwards; the reference forms every clamped squared distance first
   and minimises after.  Over the extended reals, for real inputs, the two agree (Proof/Spec.lean); Proof/Accum.lean
   and Proof/Final.lean read the kernel's output column off its run, Proof/KernelSide.lean the host lines around it,
   Proof/RefSide.lean the reference, Proof/Finite.lean the precondition, Proof/Bridge.lean joins them. -/
import proofs.«165794_j84224308674625_2_alg».proof.Defs
import proofs.«165794_j84224308674625_2_alg».proof.Proof.Gen.Kernel
import proofs.«165794_j84224308674625_2_alg».proof.Proof.Gen.Kernel.Skeleton
import proofs.«165794_j84224308674625_2_alg».proof.Proof.Gen.Kernel.Launch
import proofs.«165794_j84224308674625_2_alg».proof.Proof.Gen.Kernel.Points
import proofs.«165794_j84224308674625_2_alg».proof.Proof.Gen.Kernel.Frame
import proofs.«165794_j84224308674625_2_alg».proof.Proof.Gen.KernelIdeal
import proofs.«165794_j84224308674625_2_alg».proof.Proof.Gen.KernelIdeal.Skeleton
import proofs.«165794_j84224308674625_2_alg».proof.Proof.Gen.KernelIdeal.Launch
import proofs.«165794_j84224308674625_2_alg».proof.Proof.Gen.KernelIdeal.Points
import proofs.«165794_j84224308674625_2_alg».proof.Proof.Gen.KernelIdeal.Frame
import proofs.«165794_j84224308674625_2_alg».proof.Proof.Gen.ReferenceIdeal
import proofs.«165794_j84224308674625_2_alg».proof.Proof.Gen.ReferenceIdeal.Run
import proofs.«165794_j84224308674625_2_alg».proof.Proof.Gen.ReferenceIdeal.Read
import proofs.«165794_j84224308674625_2_alg».proof.Proof.Gen.Pre_finite_inputs
import proofs.«165794_j84224308674625_2_alg».proof.Proof.Bridge
import Idealize.ShloMosaic.Adequacy
import Idealize.ShloMosaic.Init

noncomputable section

namespace Cert.Proof

open Idealize.ShloMosaic Idealize.SL.Sem Cert.Kernel

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- At the extended reals the two programs, run from memories that agree on the arguments, end with equal results:
    the inputs are real by the precondition, and for real inputs the two arrangements of the nearest-point law agree. -/
theorem algebraic : Cert.algebraic_KernelIdeal_ReferenceIdeal := by
  intro m ρ m' ρ' hpre hagree
  refine ⟨fun c => Cert.KernelIdeal.KernelSide.result m c, Cert.KernelIdeal.KernelSide.run m ρ, ?_⟩
  refine (θ_run Cert.ReferenceIdeal.defs _ _).mono (fun _ h c => ⟨(h c).1.trans ?_, (h c).2⟩)
    (Cert.ReferenceIdeal.Value.run (F := Ideal) m' ρ')
  obtain ⟨hq, hp⟩ := Cert.Finite.entries_real _ _ _ (hpre c)
  rw [Cert.ReferenceIdeal.Read.val_main_v22_eq, (hagree c).1, (hagree c).2.1, (hagree c).2.2]
  exact (Cert.Bridge.result_eq m c hq hp).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
